-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S5000x128 : Shape := ⟨2, ![5000, 128]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 104
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S100000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S1600000x1, .f32⟩
  | .hbm, ⟨95, _⟩ => ⟨S1600000x64, .f32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x64, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S1600000x1, .f32⟩
  | .hbm, ⟨102, _⟩ => ⟨S1600000x64, .f32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, read to the end: @main is nine segments — three stretches of host operations, the first
  product of rows, a stretch (gather, scale, scatter-add), the second product, a stretch, the third product, the last
  stretch (gather, scale, scatter-add, bias) — and the contents of every buffer that outlives a kernel region are
  threaded through them as a fold `W0, W1, …, W9` of valuations: a stretch applies its operations, a region replaces
  its arrays by what its write-backs leave. Every weakly fair execution terminates, and in every final state each such
  buffer holds what the last valuation `W9` says. In particular the result buffer and the eight arguments do.
-/
import proofs.«172251_j60232621359253_1_alg».proof.Defs
import proofs.«172251_j60232621359253_1_alg».proof.Proof.Gen.KernelIdeal.Frame
import Idealize.ShloMosaic.Lib.Pipeline.Regions

noncomputable section

namespace Cert.KernelIdeal.Ending

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when @main starts: every buffer that outlives a region at its launch contents, and beside it the
    generator register and the empty debt. -/
abbrev start (c : Dev nD) : sProp 𝕄 :=
  iprop(StableHlo.held (c : Thread nD τ) (Pipeline.ucRefs τ sig) (W0 m ρ c) ∗ R c)

/-- The launch deals each core exactly that. -/
theorem start_of_launch :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ |={Set.univ}=> bigSep Finset.univ (start (F := F) m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Hdebt, -, Hreg, -⟩, -⟩
  imodintro
  isplitl [Hbufs]; · iexact Hbufs
  isplitl [Hreg]; · iexists _; iexact Hreg
  iexists ∅; iexact Hdebt

/-- Held beside a final state's interpretation, the last valuation is what that state's memory holds. -/
theorem read_end (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W9 m ρ c b⌝ ∗ SI s') := by
  iintro ⟨⟨Hbufs, -⟩, HSI⟩
  unfold StableHlo.held
  imodintro
  iapply (pointsTo_read_all (Pipeline.ucRefs τ sig) (fun b => (((c : Thread nD τ)).1, b)) (W9 m ρ c) s')
  isplitl [Hbufs] <;> iassumption

set_option backward.isDefEq.respectTransparency.types false in
/-- THE RUN, READ TO THE END. Whatever follows from "every buffer that outlives a region holds what `W9` says" holds
    of every final state of every weakly fair execution. -/
theorem run_reading {Q : PUnit × MemSt nD τ sig (Elt F) → Prop}
    (hQ : ∀ s : MemSt nD τ sig (Elt F), (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := start m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hbufs, Hreg, Hdebt⟩
        isplitr [Hdebt]
        · isplitl [Hbufs] <;> iassumption
        iexact Hdebt⟩)
    (hinit := start_of_launch m ρ)
    (QY := fun c s => ∀ b ∈ Pipeline.ucRefs τ sig, s.mem (((c : Thread nD τ)).1, b) = W9 m ρ c b)
    (hfin := read_end m ρ)
    (hQ := hQ)

/-- The result buffer is not scoped to a region, so the reading covers it; -/
theorem result_mem : Proc.devRef .tc main_v75 ∈ Pipeline.ucRefs τ sig := mem_uc main_v75 (by decide)

/-- so: every weakly fair execution of the idealized kernel terminates with the result buffer at `W9`'s contents and
    the eight arguments as launched. -/
theorem run_result : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reading m ρ fun s h c =>
    ⟨h c _ (result_mem),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩

end Cert.KernelIdeal.Ending

end
-- ==== Proof.Stages.lean ====
/-
  The graph convolution, stage by stage, as the host operations spell it (for any float values).

  From the edge list (row 0 the sources, row 1 the destinations): each node's in-degree by scatter-adding ones at the
  destinations; its inverse square root where positive and zero elsewhere; the weight of an edge, the product of that
  quantity at its two ends (negative indices wrapped by the node count first). One ROUND of message passing takes an
  array `h` of node rows: gather the source's row for every edge, scale it by the edge's weight, scatter-add it at the
  destination. A LAYER is a round applied to `x · W`, plus a bias row; between layers the entries are clamped below at
  zero. The network is three layers, the last of width 64 and unclamped.

  The rounds, the bias and the clamp are the same host operations in the kernel's program and in the reference's; only
  the three products `x · W` differ (kernel regions there, one host product here). So each stage is stated once, over the
  product it is fed.
-/
import proofs.«172251_j60232621359253_1_alg».proof.ReferenceIdeal
import proofs.«172251_j60232621359253_1_alg».proof.Proof.Gen.ReferenceIdeal

noncomputable section

namespace Cert.ReferenceIdeal.Stage

open Cert.ReferenceIdeal Cert.ReferenceIdeal.Gen Idealize.ShloMosaic Idealize.ShloMosaic.TcCoe

variable {F : FTy → Type} [FloatOps F]

/-- The sources, and the destinations, of the edges: the two rows of the edge list. -/
def src (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def dst (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A node index with the negative ones wrapped round by the node count. -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- In-degrees: ones scatter-added at the destinations. -/
def deg (d : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32))
    (broadcastInDim S1600000x1 ![0] bcast_S1600000_S1600000x1_0 d) (broadcastInDim S1600000 ![] bcast_S_S1600000 (constant S_ .f32 0x3F800000#32))

/-- Inverse square root of the degree where it is positive, zero elsewhere. -/
def dinv (d : (⟨S1600000, .i32⟩ : BufTy).Contents (Elt F)) : (⟨S100000, .f32⟩ : BufTy).Contents (Elt F) :=
  select (cmpf (F := F) .ogt (deg d) (broadcastInDim S100000 ![] bcast_S_S100000 (constant S_ .f32 0x00000000#32)))
    (Host.rsqrt (deg d)) (broadcastInDim S100000 ![] bcast_S_S100000 (id (constant S_ .f32 0x00000000#32)))

/-- The weight of every edge. -/
def weight (s d : (⟨S1600000, .i32⟩ : BufTy).Contents (Elt F)) : (⟨S1600000, .f32⟩ : BufTy).Contents (Elt F) :=
  mulf (Host.gather gather_S100000_S1600000x1_S1600000_n_0_n_n_0_1_1 (dinv d) (broadcastInDim S1600000x1 ![0] bcast_S1600000_S1600000x1_0 (wrap s)))
    (Host.gather gather_S100000_S1600000x1_S1600000_n_0_n_n_0_1_1 (dinv d) (broadcastInDim S1600000x1 ![0] bcast_S1600000_S1600000x1_0 (wrap d)))

/-- One round on rows of width 128: gather at the sources, scale by the weights, scatter-add at the destinations. -/
def round128 (h : (⟨S100000x128, .f32⟩ : BufTy).Contents (Elt F)) (s d : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 h (broadcastInDim S1600000x1 ![0] bcast_S1600000_S1600000x1_0 (wrap s)))
      (broadcastInDim S1600000x128 ![0, 1] bcast_S1600000x1_S1600000x128_0_1 (broadcastInDim S1600000x1 ![0] bcast_S1600000_S1600000x1_0 w)))

/-- The same on rows of width 64. -/
def round64 (h : (⟨S100000x64, .f32⟩ : BufTy).Contents (Elt F)) (s d : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 d)
    (mulf (Host.gather gather_S100000x64_S1600000x1_S1600000x64_1_0_n_n_0_1_164 h (broadcastInDim S1600000x1 ![0] bcast_S1600000_S1600000x1_0 (wrap s)))
      (broadcastInDim S1600000x64 ![0, 1] bcast_S1600000x1_S1600000x64_0_1 (broadcastInDim S1600000x1 ![0] bcast_S1600000_S1600000x1_0 w)))

/-- A bias row added to every row, width 128 and width 64. -/
def biased128 (x : (⟨S100000x128, .f32⟩ : BufTy).Contents (Elt F)) (b : (⟨S128, .f32⟩ : BufTy).Contents (Elt F)) : (⟨S100000x128, .f32⟩ : BufTy).Contents (Elt F) :=
  addf x (broadcastInDim S100000x128 ![0, 1] bcast_S1x128_S100000x128_0_1 (broadcastInDim S1x128 ![1] bcast_S128_S1x128_1 b))
def biased64 (x : (⟨S100000x64, .f32⟩ : BufTy).Contents (Elt F)) (b : (⟨S64, .f32⟩ : BufTy).Contents (Elt F)) : (⟨S100000x64, .f32⟩ : BufTy).Contents (Elt F) :=
  addf x (broadcastInDim S100000x64 ![0, 1] bcast_S1x64_S100000x64_0_1 (broadcastInDim S1x64 ![1] bcast_S64_S1x64_1 b))

/-- Every entry clamped below at zero. -/
def clamp128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The host's products of all the rows with a weight matrix. -/
def prod128 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w
def prod64 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- The three layers from the three products' results `h1`, `h2`, `h3` outward — what follows the last product: -/
def tail3 (h3 : (⟨S100000x64, .f32⟩ : BufTy).Contents (Elt F)) (s d : (⟨S1600000, .i32⟩ : BufTy).Contents (Elt F))
    (w : (⟨S1600000, .f32⟩ : BufTy).Contents (Elt F)) (b3 : (⟨S64, .f32⟩ : BufTy).Contents (Elt F)) : (⟨S100000x64, .f32⟩ : BufTy).Contents (Elt F) :=
  biased64 (round64 h3 s d w) b3

/-- The whole network as the reference computes it. -/
def network (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F)) : (⟨S100000x64, .f32⟩ : BufTy).Contents (Elt F) :=
  tail3 (prod64 (clamp128 (biased128 (round128 (prod128 (clamp128 (biased128 (round128 (prod128 x w1)
    (src e) (dst e) (weight (src e) (dst e))) b1)) w2) (src e) (dst e) (weight (src e) (dst e))) b2)) w3)
    (src e) (dst e) (weight (src e) (dst e)) b3

end Cert.ReferenceIdeal.Stage

end
-- ==== Proof.Stretches.lean ====
/-
  The stretches of host operations between the kernel's regions, each read as a function of what the buffers held when
  the stretch began (`V`, any contents). The three stretches before the first region compute the edge data from the
  edge list; the stretch after each product runs one round of message passing on the product's result and lays the next
  bias out as a row; the last stretch runs the last round and adds the last bias. A buffer a stretch does not write
  holds afterwards what it held before.
-/
import proofs.«172251_j60232621359253_1_alg».proof.Proof.Gen.KernelIdeal.Launch
import proofs.«172251_j60232621359253_1_alg».proof.Proof.Stages
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F] (V : Valuation τ sig (Elt F))

/-! ## Before the first region: the edge data -/

/-- The sources of the edges, -/
theorem init_src : StableHlo.after hostOps0_2 (StableHlo.after hostOps0_1 (StableHlo.after hostOps0 V)) (Proc.devRef .tc main_v1) = Cert.ReferenceIdeal.Stage.src (F := F) (V (Proc.devRef .tc main_arg1)) := by
  after_results; rfl
/-- their destinations, -/
theorem init_dst : StableHlo.after hostOps0_2 (StableHlo.after hostOps0_1 (StableHlo.after hostOps0 V)) (Proc.devRef .tc main_v3) = Cert.ReferenceIdeal.Stage.dst (F := F) (V (Proc.devRef .tc main_arg1)) := by
  after_results; rfl
set_option maxHeartbeats 4000000 in
/-- and their weights. -/
theorem init_weight : StableHlo.after hostOps0_2 (StableHlo.after hostOps0_1 (StableHlo.after hostOps0 V)) (Proc.devRef .tc main_v26)
    = Cert.ReferenceIdeal.Stage.weight (F := F) (Cert.ReferenceIdeal.Stage.src (V (Proc.devRef .tc main_arg1))) (Cert.ReferenceIdeal.Stage.dst (V (Proc.devRef .tc main_arg1))) := by
  after_results_simp; rfl
theorem init_keep_arg0 : StableHlo.after hostOps0_2 (StableHlo.after hostOps0_1 (StableHlo.after hostOps0 V)) (Proc.devRef .tc main_arg0) = V (Proc.devRef .tc main_arg0) := by
  after_results
theorem init_keep_arg2 : StableHlo.after hostOps0_2 (StableHlo.after hostOps0_1 (StableHlo.after hostOps0 V)) (Proc.devRef .tc main_arg2) = V (Proc.devRef .tc main_arg2) := by
  after_results
theorem init_keep_arg3 : StableHlo.after hostOps0_2 (StableHlo.after hostOps0_1 (StableHlo.after hostOps0 V)) (Proc.devRef .tc main_arg3) = V (Proc.devRef .tc main_arg3) := by
  after_results
theorem init_keep_arg4 : StableHlo.after hostOps0_2 (StableHlo.after hostOps0_1 (StableHlo.after hostOps0 V)) (Proc.devRef .tc main_arg4) = V (Proc.devRef .tc main_arg4) := by
  after_results
theorem init_keep_arg5 : StableHlo.after hostOps0_2 (StableHlo.after hostOps0_1 (StableHlo.after hostOps0 V)) (Proc.devRef .tc main_arg5) = V (Proc.devRef .tc main_arg5) := by
  after_results
theorem init_keep_arg6 : StableHlo.after hostOps0_2 (StableHlo.after hostOps0_1 (StableHlo.after hostOps0 V)) (Proc.devRef .tc main_arg6) = V (Proc.devRef .tc main_arg6) := by
  after_results
theorem init_keep_arg7 : StableHlo.after hostOps0_2 (StableHlo.after hostOps0_1 (StableHlo.after hostOps0 V)) (Proc.devRef .tc main_arg7) = V (Proc.devRef .tc main_arg7) := by
  after_results

/-! ## After the first product -/

set_option maxHeartbeats 4000000 in
/-- One round on the first product's result; -/
theorem s1_round : StableHlo.after hostOps1 V (Proc.devRef .tc main_v42)
    = Cert.ReferenceIdeal.Stage.round128 (F := F) (V (Proc.devRef .tc main_v29)) (V (Proc.devRef .tc main_v1)) (V (Proc.devRef .tc main_v3)) (V (Proc.devRef .tc main_v26)) := by
  after_results_simp; rfl
/-- the first bias as a row. -/
theorem s1_bias : StableHlo.after hostOps1 V (Proc.devRef .tc main_v43)
    = shapeCast S1x128 (V (Proc.devRef .tc main_arg3)) shapeCasts_S128_S1x128 := by
  after_results; rfl
theorem s1_keep_v1 : StableHlo.after hostOps1 V (Proc.devRef .tc main_v1) = V (Proc.devRef .tc main_v1) := by
  after_results
theorem s1_keep_v3 : StableHlo.after hostOps1 V (Proc.devRef .tc main_v3) = V (Proc.devRef .tc main_v3) := by
  after_results
theorem s1_keep_v26 : StableHlo.after hostOps1 V (Proc.devRef .tc main_v26) = V (Proc.devRef .tc main_v26) := by
  after_results
theorem s1_keep_arg4 : StableHlo.after hostOps1 V (Proc.devRef .tc main_arg4) = V (Proc.devRef .tc main_arg4) := by
  after_results
theorem s1_keep_arg5 : StableHlo.after hostOps1 V (Proc.devRef .tc main_arg5) = V (Proc.devRef .tc main_arg5) := by
  after_results
theorem s1_keep_arg6 : StableHlo.after hostOps1 V (Proc.devRef .tc main_arg6) = V (Proc.devRef .tc main_arg6) := by
  after_results
theorem s1_keep_arg7 : StableHlo.after hostOps1 V (Proc.devRef .tc main_arg7) = V (Proc.devRef .tc main_arg7) := by
  after_results

/-! ## After the second product -/

set_option maxHeartbeats 4000000 in
theorem s2_round : StableHlo.after hostOps2 V (Proc.devRef .tc main_v57)
    = Cert.ReferenceIdeal.Stage.round128 (F := F) (V (Proc.devRef .tc main_v44)) (V (Proc.devRef .tc main_v1)) (V (Proc.devRef .tc main_v3)) (V (Proc.devRef .tc main_v26)) := by
  after_results_simp; rfl
theorem s2_bias : StableHlo.after hostOps2 V (Proc.devRef .tc main_v58)
    = shapeCast S1x128 (V (Proc.devRef .tc main_arg5)) shapeCasts_S128_S1x128 := by
  after_results; rfl
theorem s2_keep_v1 : StableHlo.after hostOps2 V (Proc.devRef .tc main_v1) = V (Proc.devRef .tc main_v1) := by
  after_results
theorem s2_keep_v3 : StableHlo.after hostOps2 V (Proc.devRef .tc main_v3) = V (Proc.devRef .tc main_v3) := by
  after_results
theorem s2_keep_v26 : StableHlo.after hostOps2 V (Proc.devRef .tc main_v26) = V (Proc.devRef .tc main_v26) := by
  after_results
theorem s2_keep_arg6 : StableHlo.after hostOps2 V (Proc.devRef .tc main_arg6) = V (Proc.devRef .tc main_arg6) := by
  after_results
theorem s2_keep_arg7 : StableHlo.after hostOps2 V (Proc.devRef .tc main_arg7) = V (Proc.devRef .tc main_arg7) := by
  after_results

/-! ## After the third product -/

set_option maxHeartbeats 4000000 in
/-- The last round and the last bias: the result. -/
theorem s3_result : StableHlo.after hostOps3 V (Proc.devRef .tc main_v75)
    = Cert.ReferenceIdeal.Stage.tail3 (F := F) (V (Proc.devRef .tc main_v59)) (V (Proc.devRef .tc main_v1)) (V (Proc.devRef .tc main_v3)) (V (Proc.devRef .tc main_v26)) (V (Proc.devRef .tc main_arg7)) := by
  after_results_simp; rfl

end Cert.KernelIdeal.Stretch

end
-- ==== Proof.LibDenseRows.lean ====
/-
  Rows through dense layers, at the exact (extended-real) reading of the float operations.

  A block of `M` rows with `K` entries each, multiplied by a `K × N` matrix into a zero accumulator, has at row `p`,
  column `j` the sum over `k` of the row's entries times the matrix's column (`matmul_plain_zero_apply`); adding a
  bias row and taking the hyperbolic tangent gives one dense layer (`denseRow`, `dense_apply`), a function of the ONE row
  `p` of the block: this is what lets a product of tall blocks be compared with the product of the whole array, row by
  row. Also here: the keep-dims forms of a column (a vector of length `a` as an `a × 1` matrix, and that column repeated
  along `b` columns), a sum over a row of a matrix as the lane reduction and the host's reduction give it, and a sum over
  `a + b` terms split into its first `a` and last `b`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.DenseRows

open Idealize.ShloMosaic Idealize.ShloMosaic.ValueIdx

/-- One dense layer on one row: `tanh (x · W + b)`, entry `j`. -/
def denseRow {K N : Nat} (W : Fin K → Fin N → EReal) (b : Fin N → EReal) (x : Fin K → EReal) : Fin N → EReal :=
  fun j => Ideal.tanh ((∑ k : Fin K, x k * W k j) + b j)

/-- The entries of a matrix as a function of row and column. -/
abbrev mat {K N : Nat} (w : (⟨2, ![K, N]⟩ : Shape).Idx → EReal) : Fin K → Fin N → EReal := fun k j => w (ix2 k j)
/-- The entries of a one-row matrix as a function of the column. -/
abbrev row1 {N : Nat} (b : (⟨2, ![1, N]⟩ : Shape).Idx → EReal) : Fin N → EReal := fun j => b (ix2 (0 : Fin 1) j)
/-- Row `p` of a matrix. -/
abbrev rowOf {M K : Nat} (x : (⟨2, ![M, K]⟩ : Shape).Idx → EReal) (p : Fin M) : Fin K → EReal := fun k => x (ix2 p k)

/-- A product of an `m × k` by a `k × n` matrix into the zero accumulator, read at row `a`, column `b`: the sum over
    the contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have h1 := Ideal.matmul_constant_zero_apply (DotDims.plain m k n) prec A B (ix2 a b)
  have h2 := StackMember.dotGeneral_plain_apply prec A B a b
  have h3 : Host.dotGeneral (DotDims.plain m k n) prec A B (ix2 a b)
      = ∑ q : (DotDims.plain m k n).contr.Idx, A ((DotDims.plain m k n).lhsIdx (ix2 a b) q) * B ((DotDims.plain m k n).rhsIdx (ix2 a b) q) := by
    show FloatOps.dotGeneral _ prec _ A B (ix2 a b) = _
    exact Ideal.dotGeneral_apply _ _ _ _ _ _
  exact h1.trans (h3.symm.trans h2)

/-- ONE DENSE LAYER of a block of rows, as a kernel writes it — both operands narrowed (the identity on exact values),
    multiplied into a zero accumulator, the bias row repeated down the rows and added, then `tanh` — read at row `p`,
    column `j`, is `denseRow` of row `p` alone. -/
theorem dense_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨2, ![1, N]⟩ .f32)
    (hx : FTy.bits .bf16 < FTy.bits .f32) (hsc : (⟨2, ![1, N]⟩ : Shape).ShapeCasts ⟨2, ![1, N]⟩)
    (hbc : (⟨2, ![1, N]⟩ : Shape).Broadcasts ⟨2, ![M, N]⟩) (p : Fin M) (j : Fin N) :
    tanh (addf (matmul D none (truncf .bf16 x hx) (truncf .bf16 w hx) (constant ⟨2, ![M, N]⟩ .f32 0x00000000#32))
        (broadcastTo ⟨2, ![M, N]⟩ (shapeCast ⟨2, ![1, N]⟩ b hsc) hbc)) (ix2 p j)
      = denseRow (mat w) (row1 b) (rowOf x p) j := by
  subst hD
  show Ideal.tanh (matmul (DotDims.plain M K N) none (truncf .bf16 x hx) (truncf .bf16 w hx) (constant ⟨2, ![M, N]⟩ .f32 0x00000000#32) (ix2 p j)
      + broadcastTo ⟨2, ![M, N]⟩ (shapeCast ⟨2, ![1, N]⟩ b hsc) hbc (ix2 p j)) = _
  rw [matmul_plain_zero_apply, broadcastTo_1b_ab_apply, shapeCast_self]
  rfl

/-- A vector of length `a` cast to an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated along `b` columns reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix's rows over its columns, as the vector unit's lane reduction onto a neutral accumulator gives it:
    at row `p` the sum of that row's entries. -/
theorem rowSum_lane_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax; apply Fin.ext
  match ax with
  | ⟨0, _⟩ => rfl
  | ⟨1, _⟩ => rfl

/-- The sum of a matrix's rows over its columns as the host's reduction gives it: at row `p` the initial value plus the sum
    of that row's entries. -/
theorem rowSum_host_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => congrArg x ?_)
  funext ax; apply Fin.ext
  match ax with
  | ⟨0, _⟩ => rfl
  | ⟨1, _⟩ => rfl

/-- The radial features of one row `h` against prototypes given by columns (`PT k j` is coordinate `k` of prototype `j`,
    `p2 j` its squared length): `exp (c₁ · ((|h|² + p2 j) − c₂ · ⟨h, P_j⟩))`, the two constants kept as their words
    (`c₁` is the word of `-1.0`, `c₂` the word of `2.0`). -/
def rbfRow {d n : Nat} (PT : Fin d → Fin n → EReal) (p2 : Fin n → EReal) (h : Fin d → EReal) : Fin n → EReal :=
  fun j => Ideal.exp (Ideal.ofBits .f32 0xBF800000#32
    * (((∑ k : Fin d, h k * h k) + p2 j) - Ideal.ofBits .f32 0x40000000#32 * ∑ k : Fin d, h k * PT k j))

/-- The logistic head on one row: the features `h` against `wx`, the radial features `f` against `wk`, a bias. -/
def headRow {d n : Nat} (wx : Fin d → EReal) (wk : Fin n → EReal) (bh : EReal) (h : Fin d → EReal) (f : Fin n → EReal) : EReal :=
  Ideal.logistic (((∑ k : Fin d, h k * wx k) + ∑ k : Fin n, f k * wk k) + bh)

/-- THE RADIAL FEATURES of a block of rows as a kernel writes them — the rows' squared lengths by a lane reduction kept as
    a column and repeated along the prototypes, the prototypes' squared lengths as a row repeated down the rows, the inner
    products by a product into a zero accumulator — read at row `p`, prototype `j`, are `rbfRow` of row `p` alone. -/
theorem rbf_apply {M d n : Nat} (D : DotDims ⟨2, ![M, d]⟩ ⟨2, ![d, n]⟩ ⟨2, ![M, n]⟩) (hD : D = DotDims.plain M d n)
    (h : FVec Ideal ⟨2, ![M, d]⟩ .f32) (pt : FVec Ideal ⟨2, ![d, n]⟩ .f32) (p2 : FVec Ideal ⟨2, ![1, n]⟩ .f32)
    (hx : FTy.bits .bf16 < FTy.bits .f32)
    (hred : (⟨2, ![M, d]⟩ : Shape).Reduces [1] ⟨1, ![M]⟩) (hφ : FKind.Formats .f32)
    (hacc : (0x00000000#32 : BitVec 32) = FKind.add.neutral .f32 hφ)
    (hsc1 : (⟨1, ![M]⟩ : Shape).ShapeCasts ⟨2, ![M, 1]⟩) (hbc1 : (⟨2, ![M, 1]⟩ : Shape).Broadcasts ⟨2, ![M, n]⟩)
    (hsc2 : (⟨2, ![1, n]⟩ : Shape).ShapeCasts ⟨2, ![1, n]⟩) (hbc2 : (⟨2, ![1, n]⟩ : Shape).Broadcasts ⟨2, ![M, n]⟩)
    (hsc3 : (⟨2, ![d, n]⟩ : Shape).ShapeCasts ⟨2, ![d, n]⟩) (p : Fin M) (j : Fin n) :
    exp (mulf (broadcast ⟨2, ![M, n]⟩ (Scalar.ofBits .f32 0xBF800000#32))
        (subf (addf (broadcastTo ⟨2, ![M, n]⟩ (shapeCast ⟨2, ![M, 1]⟩ (multiReduction .add [1] ⟨1, ![M]⟩ (mulf h h) 0x00000000#32 hred hφ hacc) hsc1) hbc1)
                    (broadcastTo ⟨2, ![M, n]⟩ (shapeCast ⟨2, ![1, n]⟩ p2 hsc2) hbc2))
              (mulf (broadcast ⟨2, ![M, n]⟩ (Scalar.ofBits .f32 0x40000000#32))
                    (matmul D none (truncf .bf16 h hx) (truncf .bf16 (shapeCast ⟨2, ![d, n]⟩ pt hsc3) hx) (constant ⟨2, ![M, n]⟩ .f32 0x00000000#32))))) (ix2 p j)
      = rbfRow (mat pt) (row1 p2) (rowOf h p) j := by
  subst hD
  show Ideal.exp (Ideal.ofBits .f32 0xBF800000#32
      * ((broadcastTo ⟨2, ![M, n]⟩ (shapeCast ⟨2, ![M, 1]⟩ (multiReduction .add [1] ⟨1, ![M]⟩ (mulf h h) 0x00000000#32 hred hφ hacc) hsc1) hbc1 (ix2 p j)
          + broadcastTo ⟨2, ![M, n]⟩ (shapeCast ⟨2, ![1, n]⟩ p2 hsc2) hbc2 (ix2 p j))
        - Ideal.ofBits .f32 0x40000000#32
          * matmul (DotDims.plain M d n) none (truncf .bf16 h hx) (truncf .bf16 (shapeCast ⟨2, ![d, n]⟩ pt hsc3) hx) (constant ⟨2, ![M, n]⟩ .f32 0x00000000#32) (ix2 p j))) = _
  rw [matmul_plain_zero_apply, broadcastTo_a1_ab_apply, shapeCast_a_a1_apply, rowSum_lane_apply, broadcastTo_1b_ab_apply,
    shapeCast_self, shapeCast_self]
  rfl

/-- THE HEAD of a block of rows as a kernel writes it — two products into zero accumulators added, the one bias repeated
    down the rows, the logistic function — read at row `p` (and the one column `q`) is `headRow` of row `p` alone. -/
theorem head_apply {M d n : Nat} (D1 : DotDims ⟨2, ![M, d]⟩ ⟨2, ![d, 1]⟩ ⟨2, ![M, 1]⟩) (hD1 : D1 = DotDims.plain M d 1)
    (D2 : DotDims ⟨2, ![M, n]⟩ ⟨2, ![n, 1]⟩ ⟨2, ![M, 1]⟩) (hD2 : D2 = DotDims.plain M n 1)
    (h : FVec Ideal ⟨2, ![M, d]⟩ .bf16) (f : FVec Ideal ⟨2, ![M, n]⟩ .f32) (wx : FVec Ideal ⟨2, ![d, 1]⟩ .bf16)
    (wk : FVec Ideal ⟨2, ![n, 1]⟩ .f32) (bh : FVec Ideal ⟨2, ![1, 1]⟩ .f32)
    (hx : FTy.bits .bf16 < FTy.bits .f32)
    (hsc : (⟨2, ![n, 1]⟩ : Shape).ShapeCasts ⟨2, ![n, 1]⟩) (hsc' : (⟨2, ![1, 1]⟩ : Shape).ShapeCasts ⟨2, ![1, 1]⟩)
    (hbc : (⟨2, ![1, 1]⟩ : Shape).Broadcasts ⟨2, ![M, 1]⟩) (p : Fin M) (q : Fin 1) :
    logistic (addf (addf (matmul D1 none h wx (constant ⟨2, ![M, 1]⟩ .f32 0x00000000#32))
          (matmul D2 none (truncf .bf16 f hx) (truncf .bf16 (shapeCast ⟨2, ![n, 1]⟩ wk hsc) hx) (constant ⟨2, ![M, 1]⟩ .f32 0x00000000#32)))
        (broadcastTo ⟨2, ![M, 1]⟩ (shapeCast ⟨2, ![1, 1]⟩ bh hsc') hbc)) (ix2 p q)
      = headRow (fun k => wx (ix2 k q)) (fun k => wk (ix2 k q)) (bh (ix2 (0 : Fin 1) q)) (rowOf h p) (rowOf f p) := by
  subst hD1 hD2
  show Ideal.logistic ((matmul (DotDims.plain M d 1) none h wx (constant ⟨2, ![M, 1]⟩ .f32 0x00000000#32) (ix2 p q)
        + matmul (DotDims.plain M n 1) none (truncf .bf16 f hx) (truncf .bf16 (shapeCast ⟨2, ![n, 1]⟩ wk hsc) hx) (constant ⟨2, ![M, 1]⟩ .f32 0x00000000#32) (ix2 p q))
      + broadcastTo ⟨2, ![M, 1]⟩ (shapeCast ⟨2, ![1, 1]⟩ bh hsc') hbc (ix2 p q)) = _
  rw [matmul_plain_zero_apply, matmul_plain_zero_apply, broadcastTo_1b_ab_apply, shapeCast_self, shapeCast_self]
  rfl

/-- The weights of the six dense layers, of the radial features and of the head, as plain functions of their coordinates. -/
structure Weights where
  W0 : Fin 8 → Fin 16 → EReal
  b0 : Fin 16 → EReal
  W1 : Fin 16 → Fin 16 → EReal
  b1 : Fin 16 → EReal
  W2 : Fin 16 → Fin 12 → EReal
  b2 : Fin 12 → EReal
  W3 : Fin 12 → Fin 8 → EReal
  b3 : Fin 8 → EReal
  W4 : Fin 8 → Fin 4 → EReal
  b4 : Fin 4 → EReal
  W5 : Fin 4 → Fin 4 → EReal
  b5 : Fin 4 → EReal
  PT : Fin 4 → Fin 10 → EReal
  p2 : Fin 10 → EReal
  wx : Fin 4 → EReal
  wk : Fin 10 → EReal
  bh : EReal

/-- The first four dense layers on one row of eight inputs. -/
def feat4 (θ : Weights) (x : Fin 8 → EReal) : Fin 8 → EReal :=
  denseRow θ.W3 θ.b3 (denseRow θ.W2 θ.b2 (denseRow θ.W1 θ.b1 (denseRow θ.W0 θ.b0 x)))
/-- All six dense layers on one row: the four features the head and the radial features read. -/
def feat (θ : Weights) (x : Fin 8 → EReal) : Fin 4 → EReal :=
  denseRow θ.W5 θ.b5 (denseRow θ.W4 θ.b4 (feat4 θ x))
/-- THE WHOLE NETWORK on one row: the logistic head of the features and of their radial features. -/
def outRow (θ : Weights) (x : Fin 8 → EReal) : EReal :=
  headRow θ.wx θ.wk θ.bh (feat θ x) (rbfRow θ.PT θ.p2 (feat θ x))

/-- A sum over `a + b` terms is the sum of the first `a` and of the last `b`. -/
theorem sum_split {M : Type*} [AddCommMonoid M] (a b : ℕ) (f : Fin (a + b) → M) :
    ∑ k : Fin (a + b), f k = (∑ k : Fin a, f (Fin.castAdd b k)) + ∑ k : Fin b, f (Fin.natAdd a k) :=
  Fin.sum_univ_add f

end Cert.DenseRows

end
-- ==== Proof.Rows.lean ====
/-
  Products of rows, at the exact (extended-real) reading of the float operations.

  A tall array `X` of `M` rows times a `K × N` matrix `W` is, at row `r` and column `j`, the sum over `k` of
  `X r k · W k j`: it depends on row `r` of `X` alone. So cutting `X` into blocks of rows, multiplying each block
  by `W` and stacking the results gives the product of the whole array — whatever is done to each ENTRY of `X`
  beforehand (here: adding a bias row and clamping below at zero), since that too is row by row. Narrowing an operand
  to a shorter float format changes nothing on exact values, and a product accumulated onto zeros is the product.
-/
import proofs.«172251_j60232621359253_1_alg».proof.Proof.LibDenseRows

noncomputable section

open scoped BigOperators

namespace Cert.GcnRows

open Idealize.ShloMosaic Idealize.ShloMosaic.ValueIdx Cert.DenseRows

/-- An entry plus its column's bias, clamped below at zero (the zero kept as its word). -/
def act (a b : EReal) : EReal := max (a + b) (Ideal.ofBits .f32 0x00000000#32)

/-- Row `r` of `X` against column `j` of `W`. -/
def rowDot {M K N : Nat} (X : (⟨2, ![M, K]⟩ : Shape).Idx → EReal) (W : (⟨2, ![K, N]⟩ : Shape).Idx → EReal)
    (r : Fin M) (j : Fin N) : EReal := ∑ k : Fin K, X (ix2 r k) * W (ix2 k j)

/-- The same after every entry of `X` took its column's bias `B 0 k` and was clamped at zero. -/
def rowActDot {M K N : Nat} (X : (⟨2, ![M, K]⟩ : Shape).Idx → EReal) (B : (⟨2, ![1, K]⟩ : Shape).Idx → EReal)
    (W : (⟨2, ![K, N]⟩ : Shape).Idx → EReal) (r : Fin M) (j : Fin N) : EReal :=
  ∑ k : Fin K, act (X (ix2 r k)) (B (ix2 (0 : Fin 1) k)) * W (ix2 k j)

/-- A block of rows times the matrix, as the matrix unit computes it — both operands narrowed, accumulated onto
    zeros — read at row `p`, column `j`. -/
theorem block_dot_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (hx : FTy.bits .bf16 < FTy.bits .f32)
    (p : Fin M) (j : Fin N) :
    matmul D none (truncf .bf16 x hx) (truncf .bf16 w hx) (constant ⟨2, ![M, N]⟩ .f32 0x00000000#32) (ix2 p j)
      = rowDot x w p j := by
  subst hD
  rw [matmul_plain_zero_apply]
  rfl

/-- The same block after the bias row (repeated down the rows) was added to it and the sum clamped at zero. -/
theorem block_act_dot_apply {M K N : Nat} (D : DotDims ⟨2, ![M, K]⟩ ⟨2, ![K, N]⟩ ⟨2, ![M, N]⟩) (hD : D = DotDims.plain M K N)
    (x : FVec Ideal ⟨2, ![M, K]⟩ .f32) (b : FVec Ideal ⟨2, ![1, K]⟩ .f32) (w : FVec Ideal ⟨2, ![K, N]⟩ .f32)
    (hx : FTy.bits .bf16 < FTy.bits .f32) (hsx : (⟨2, ![M, K]⟩ : Shape).ShapeCasts ⟨2, ![M, K]⟩)
    (hsb : (⟨2, ![1, K]⟩ : Shape).ShapeCasts ⟨2, ![1, K]⟩) (hbc : (⟨2, ![1, K]⟩ : Shape).Broadcasts ⟨2, ![M, K]⟩)
    (p : Fin M) (j : Fin N) :
    matmul D none
        (truncf .bf16 (maximumf (addf (shapeCast ⟨2, ![M, K]⟩ x hsx) (broadcastTo ⟨2, ![M, K]⟩ (shapeCast ⟨2, ![1, K]⟩ b hsb) hbc))
          (broadcast ⟨2, ![M, K]⟩ (Scalar.ofBits .f32 0x00000000#32))) hx)
        (truncf .bf16 w hx) (constant ⟨2, ![M, N]⟩ .f32 0x00000000#32) (ix2 p j)
      = rowActDot x b w p j := by
  subst hD
  rw [matmul_plain_zero_apply]
  refine Finset.sum_congr rfl fun k _ => ?_
  show max (shapeCast ⟨2, ![M, K]⟩ x hsx (ix2 p k) + broadcastTo ⟨2, ![M, K]⟩ (shapeCast ⟨2, ![1, K]⟩ b hsb) hbc (ix2 p k))
      (Ideal.ofBits .f32 0x00000000#32) * w (ix2 k j) = _
  rw [shapeCast_self, broadcastTo_1b_ab_apply, shapeCast_self]
  rfl

/-- The whole array times the matrix, as the host computes it, read at row `r`, column `j`. -/
theorem host_dot_apply {M K N : Nat} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32) (r : Fin M) (j : Fin N) :
    Host.dotGeneral D none X W (ix2 r j) = rowDot X W r j := by
  subst hD
  exact StackMember.dotGeneral_plain_apply none X W r j

end Cert.GcnRows

end
-- ==== Proof.Product0.lean ====
/-
  Product 1 of the three: the node features times the first weight matrix.

  The kernel cuts the 100000 rows into twenty blocks of 5000, one per grid point; point `t` reads rows
  `5000 t … 5000 t + 4999` and the whole matrix, and writes back the same rows of the result. An entry of a
  product of rows depends on its own row only, so the twenty blocks written back are the twenty blocks of ONE array: the
  product of all the rows with the matrix. The blocks cover every row (row `r` is in block `r / 5000`), so after the
  region the result array is that product.
-/
import proofs.«172251_j60232621359253_1_alg».proof.Proof.Gen.KernelIdeal.Frame
import proofs.«172251_j60232621359253_1_alg».proof.Proof.Rows
import Idealize.ShloMosaic.Lib.Pipeline.Value

set_option maxRecDepth 16384

noncomputable section

open scoped BigOperators

namespace Cert.KernelIdeal.Product0

open Cert.KernelIdeal Cert.KernelIdeal.Gen Cert.GcnRows
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The product of ALL the rows: entry `(r, j)` is row `r` against column `j`. -/
def whole (X : S100000x128.Idx → EReal) (W : S128x128.Idx → EReal) : S100000x128.Idx → EReal :=
  fun i => rowDot X W ⟨(i 0).val, (i 0).isLt⟩ ⟨(i 1).val, (i 1).isLt⟩

/-- What the body stores, read at row `p`, column `j` of the block. -/
theorem pay_apply (x0 : Vec Ideal S5000x128 .f32) (x2 : Vec Ideal S128x128 .f32) (p : Fin 5000) (j : Fin 128) :
    k0_pay1 x0 x2 (ix2 p j) = rowDot x0 x2 p j := by
  unfold k0_pay1
  exact block_dot_apply _ rfl x0 x2 _ p j

/-- The index maps over the grid: point `t` takes block `t` of the rows and of the result, and the whole of the rest. -/
theorem blocks_at : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the product of all the rows. -/
theorem flushed_eq (c : Dev nD) (t : Fin cfg0.N) :
    (dat0 V c).flushed 3 t = ((cfg0.win 3).blk t).view.read (Elt Ideal) (whole (V c (Pipeline.arrRef spec0 0)) (V c (Pipeline.arrRef spec0 2))) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin]
  obtain ⟨e0, e1, e2, e3, e4, e5⟩ := blocks_at t
  funext y
  have hy0 : (y 0).val < 5000 := (y 0).isLt
  have hy1 : (y 1).val < 128 := (y 1).isLt
  have hy : y = ix2 (⟨(y 0).val, hy0⟩ : Fin 5000) (⟨(y 1).val, hy1⟩ : Fin 128) := funext fun a => Fin.ext (by
    match a with
    | ⟨0, _⟩ => rfl
    | ⟨1, _⟩ => rfl)
  refine (congrArg _ hy).trans ((pay_apply (iblk0 V c 0 t) (iblk0 V c 2 t) ⟨(y 0).val, hy0⟩ ⟨(y 1).val, hy1⟩).trans ?_)
  show _ = whole (V c (Pipeline.arrRef spec0 0)) (V c (Pipeline.arrRef spec0 2)) (((cfg0.win 3).blk t).view.emb y)
  unfold whole rowDot iblk0
  simp only [View.read_apply]
  refine Finset.sum_congr rfl fun k _ => ?_
  refine congrArg₂ (· * ·) (congrArg (V c (Pipeline.arrRef spec0 0)) ?_) (congrArg (V c (Pipeline.arrRef spec0 2)) ?_)
  · funext a; apply Fin.ext
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  · funext a; apply Fin.ext
    match a with
    | ⟨0, _⟩ => show win0_2.index t (0 : Fin 2) * 128 + 1 * k.val = k.val; omega
    | ⟨1, _⟩ => show win0_2.index t (1 : Fin 2) * 128 + 1 * (y 1).val = win0_3.index t (1 : Fin 2) * 128 + 1 * (y 1).val; omega

/-- An index of the result array is in point `t`'s block iff its row is among that block's rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- THE RESULT ARRAY after the region: the product of all the rows. -/
theorem array_eq (c : Dev nD) : (dat0 V c).arrAt 3 cfg0.N = whole (V c (Pipeline.arrRef spec0 0)) (V c (Pipeline.arrRef spec0 2)) :=
  (dat0 V c).arrAt_eq_of_cover 3 _ (fun t _ => flushed_eq V c t) fun i => by
    have hi0 : (i 0).val < 100000 := (i 0).isLt
    have hi1 : (i 1).val < 128 := (i 1).isLt
    have hN : cfg0.N = 20 := N_0
    refine ⟨⟨(i 0).val / 5000, by rw [hN]; omega⟩, flush0_3 _, ?_⟩
    rw [mem_blk]
    obtain ⟨e0, e1, e2, e3, e4, e5⟩ := blocks_at ⟨(i 0).val / 5000, by rw [hN]; omega⟩
    intro a
    match a with
    | ⟨0, _⟩ => show win0_3.index _ (0 : Fin 2) * 5000 ≤ (i 0).val ∧ (i 0).val < win0_3.index _ (0 : Fin 2) * 5000 + 5000; rw [e4]; show (i 0).val / 5000 * 5000 ≤ (i 0).val ∧ (i 0).val < (i 0).val / 5000 * 5000 + 5000; omega
    | ⟨1, _⟩ => show win0_3.index _ (1 : Fin 2) * 128 ≤ (i 1).val ∧ (i 1).val < win0_3.index _ (1 : Fin 2) * 128 + 128; rw [e5]; omega

end Cert.KernelIdeal.Product0

end
-- ==== Proof.Product1.lean ====
/-
  Product 2 of the three: the first round's aggregate, biased and clamped at zero, times the second weight matrix.

  The kernel cuts the 100000 rows into twenty blocks of 5000, one per grid point; point `t` reads rows
  `5000 t … 5000 t + 4999`, the whole bias row and the whole matrix, and writes back the same rows of the result. An entry of a
  product of rows depends on its own row only, so the twenty blocks written back are the twenty blocks of ONE array: the
  product of all the rows with the matrix. The blocks cover every row (row `r` is in block `r / 5000`), so after the
  region the result array is that product.
-/
import proofs.«172251_j60232621359253_1_alg».proof.Proof.Gen.KernelIdeal.Frame
import proofs.«172251_j60232621359253_1_alg».proof.Proof.Rows
import Idealize.ShloMosaic.Lib.Pipeline.Value

set_option maxRecDepth 16384

noncomputable section

open scoped BigOperators

namespace Cert.KernelIdeal.Product1

open Cert.KernelIdeal Cert.KernelIdeal.Gen Cert.GcnRows
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The product of ALL the rows: entry `(r, j)` is row `r` against column `j`. -/
def whole (X : S100000x128.Idx → EReal) (B : S1x128.Idx → EReal) (W : S128x128.Idx → EReal) : S100000x128.Idx → EReal :=
  fun i => rowActDot X B W ⟨(i 0).val, (i 0).isLt⟩ ⟨(i 1).val, (i 1).isLt⟩

/-- What the body stores, read at row `p`, column `j` of the block. -/
theorem pay_apply (x0 : Vec Ideal S5000x128 .f32) (x1 : Vec Ideal S1x128 .f32) (x2 : Vec Ideal S128x128 .f32) (p : Fin 5000) (j : Fin 128) :
    k1_pay1 x0 x1 x2 (ix2 p j) = rowActDot x0 x1 x2 p j := by
  unfold k1_pay1
  exact block_act_dot_apply _ rfl x0 x1 x2 _ _ _ _ p j

/-- The index maps over the grid: point `t` takes block `t` of the rows and of the result, and the whole of the rest. -/
theorem blocks_at : ∀ t : Fin cfg1.N, win1_0.index t (0 : Fin 2) = t.val ∧ win1_0.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_1.index t (0 : Fin 2) = 0 ∧ win1_1.index t (1 : Fin 2) = 0 :=
  (by decide +kernel : ∀ t : Fin grid1.N, _)

set_option maxHeartbeats 4000000 in
/-- WHAT POINT `t` WRITES BACK is block `t` of the product of all the rows. -/
theorem flushed_eq (c : Dev nD) (t : Fin cfg1.N) :
    (dat1 V c).flushed 3 t = ((cfg1.win 3).blk t).view.read (Elt Ideal) (whole (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x128) origin]
  obtain ⟨e0, e1, e2, e3, e4, e5, e6, e7⟩ := blocks_at t
  funext y
  have hy0 : (y 0).val < 5000 := (y 0).isLt
  have hy1 : (y 1).val < 128 := (y 1).isLt
  have hy : y = ix2 (⟨(y 0).val, hy0⟩ : Fin 5000) (⟨(y 1).val, hy1⟩ : Fin 128) := funext fun a => Fin.ext (by
    match a with
    | ⟨0, _⟩ => rfl
    | ⟨1, _⟩ => rfl)
  refine (congrArg _ hy).trans ((pay_apply (iblk1 V c 0 t) (iblk1 V c 1 t) (iblk1 V c 2 t) ⟨(y 0).val, hy0⟩ ⟨(y 1).val, hy1⟩).trans ?_)
  show _ = whole (V c (Pipeline.arrRef spec1 0)) (V c (Pipeline.arrRef spec1 1)) (V c (Pipeline.arrRef spec1 2)) (((cfg1.win 3).blk t).view.emb y)
  unfold whole rowActDot iblk1
  simp only [View.read_apply]
  refine Finset.sum_congr rfl fun k _ => ?_
  refine congrArg₂ (· * ·) (congrArg₂ act (congrArg (V c (Pipeline.arrRef spec1 0)) ?_) (congrArg (V c (Pipeline.arrRef spec1 1)) ?_)) (congrArg (V c (Pipeline.arrRef spec1 2)) ?_)
  · funext a; apply Fin.ext
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  · funext a; apply Fin.ext
    match a with
    | ⟨0, _⟩ => show win1_1.index t (0 : Fin 2) * 1 + 1 * 0 = 0; omega
    | ⟨1, _⟩ => show win1_1.index t (1 : Fin 2) * 128 + 1 * k.val = k.val; omega
  · funext a; apply Fin.ext
    match a with
    | ⟨0, _⟩ => show win1_2.index t (0 : Fin 2) * 128 + 1 * k.val = k.val; omega
    | ⟨1, _⟩ => show win1_2.index t (1 : Fin 2) * 128 + 1 * (y 1).val = win1_3.index t (1 : Fin 2) * 128 + 1 * (y 1).val; omega

/-- An index of the result array is in point `t`'s block iff its row is among that block's rows. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- THE RESULT ARRAY after the region: the product of all the rows. -/
theorem array_eq (c : Dev nD) : (dat1 V c).arrAt 3 cfg1.N = whole (V c (Pipeline.arrRef spec1 0)) (V c (Pipeline.arrRef spec1 1)) (V c (Pipeline.arrRef spec1 2)) :=
  (dat1 V c).arrAt_eq_of_cover 3 _ (fun t _ => flushed_eq V c t) fun i => by
    have hi0 : (i 0).val < 100000 := (i 0).isLt
    have hi1 : (i 1).val < 128 := (i 1).isLt
    have hN : cfg1.N = 20 := N_1
    refine ⟨⟨(i 0).val / 5000, by rw [hN]; omega⟩, flush1_3 _, ?_⟩
    rw [mem_blk]
    obtain ⟨e0, e1, e2, e3, e4, e5, e6, e7⟩ := blocks_at ⟨(i 0).val / 5000, by rw [hN]; omega⟩
    intro a
    match a with
    | ⟨0, _⟩ => show win1_3.index _ (0 : Fin 2) * 5000 ≤ (i 0).val ∧ (i 0).val < win1_3.index _ (0 : Fin 2) * 5000 + 5000; rw [e4]; show (i 0).val / 5000 * 5000 ≤ (i 0).val ∧ (i 0).val < (i 0).val / 5000 * 5000 + 5000; omega
    | ⟨1, _⟩ => show win1_3.index _ (1 : Fin 2) * 128 ≤ (i 1).val ∧ (i 1).val < win1_3.index _ (1 : Fin 2) * 128 + 128; rw [e5]; omega

end Cert.KernelIdeal.Product1

end
-- ==== Proof.Product2.lean ====
/-
  Product 3 of the three: the second round's aggregate, biased and clamped at zero, times the third weight matrix.

  The kernel cuts the 100000 rows into twenty blocks of 5000, one per grid point; point `t` reads rows
  `5000 t … 5000 t + 4999`, the whole bias row and the whole matrix, and writes back the same rows of the result. An entry of a
  product of rows depends on its own row only, so the twenty blocks written back are the twenty blocks of ONE array: the
  product of all the rows with the matrix. The blocks cover every row (row `r` is in block `r / 5000`), so after the
  region the result array is that product.
-/
import proofs.«172251_j60232621359253_1_alg».proof.Proof.Gen.KernelIdeal.Frame
import proofs.«172251_j60232621359253_1_alg».proof.Proof.Rows
import Idealize.ShloMosaic.Lib.Pipeline.Value

set_option maxRecDepth 16384

noncomputable section

open scoped BigOperators

namespace Cert.KernelIdeal.Product2

open Cert.KernelIdeal Cert.KernelIdeal.Gen Cert.GcnRows
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The product of ALL the rows: entry `(r, j)` is row `r` against column `j`. -/
def whole (X : S100000x128.Idx → EReal) (B : S1x128.Idx → EReal) (W : S128x64.Idx → EReal) : S100000x64.Idx → EReal :=
  fun i => rowActDot X B W ⟨(i 0).val, (i 0).isLt⟩ ⟨(i 1).val, (i 1).isLt⟩

/-- What the body stores, read at row `p`, column `j` of the block. -/
theorem pay_apply (x0 : Vec Ideal S5000x128 .f32) (x1 : Vec Ideal S1x128 .f32) (x2 : Vec Ideal S128x64 .f32) (p : Fin 5000) (j : Fin 64) :
    k2_pay1 x0 x1 x2 (ix2 p j) = rowActDot x0 x1 x2 p j := by
  unfold k2_pay1
  exact block_act_dot_apply _ rfl x0 x1 x2 _ _ _ _ p j

/-- The index maps over the grid: point `t` takes block `t` of the rows and of the result, and the whole of the rest. -/
theorem blocks_at : ∀ t : Fin cfg2.N, win2_0.index t (0 : Fin 2) = t.val ∧ win2_0.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_1.index t (0 : Fin 2) = 0 ∧ win2_1.index t (1 : Fin 2) = 0 :=
  (by decide +kernel : ∀ t : Fin grid2.N, _)

set_option maxHeartbeats 4000000 in
/-- WHAT POINT `t` WRITES BACK is block `t` of the product of all the rows. -/
theorem flushed_eq (c : Dev nD) (t : Fin cfg2.N) :
    (dat2 V c).flushed 3 t = ((cfg2.win 3).blk t).view.read (Elt Ideal) (whole (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin]
  simp only [View.ld_unit_zero (S := S5000x128) origin, View.ld_unit_zero (S := S1x128) origin, View.ld_unit_zero (S := S128x64) origin]
  obtain ⟨e0, e1, e2, e3, e4, e5, e6, e7⟩ := blocks_at t
  funext y
  have hy0 : (y 0).val < 5000 := (y 0).isLt
  have hy1 : (y 1).val < 64 := (y 1).isLt
  have hy : y = ix2 (⟨(y 0).val, hy0⟩ : Fin 5000) (⟨(y 1).val, hy1⟩ : Fin 64) := funext fun a => Fin.ext (by
    match a with
    | ⟨0, _⟩ => rfl
    | ⟨1, _⟩ => rfl)
  refine (congrArg _ hy).trans ((pay_apply (iblk2 V c 0 t) (iblk2 V c 1 t) (iblk2 V c 2 t) ⟨(y 0).val, hy0⟩ ⟨(y 1).val, hy1⟩).trans ?_)
  show _ = whole (V c (Pipeline.arrRef spec2 0)) (V c (Pipeline.arrRef spec2 1)) (V c (Pipeline.arrRef spec2 2)) (((cfg2.win 3).blk t).view.emb y)
  unfold whole rowActDot iblk2
  simp only [View.read_apply]
  refine Finset.sum_congr rfl fun k _ => ?_
  refine congrArg₂ (· * ·) (congrArg₂ act (congrArg (V c (Pipeline.arrRef spec2 0)) ?_) (congrArg (V c (Pipeline.arrRef spec2 1)) ?_)) (congrArg (V c (Pipeline.arrRef spec2 2)) ?_)
  · funext a; apply Fin.ext
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega
  · funext a; apply Fin.ext
    match a with
    | ⟨0, _⟩ => show win2_1.index t (0 : Fin 2) * 1 + 1 * 0 = 0; omega
    | ⟨1, _⟩ => show win2_1.index t (1 : Fin 2) * 128 + 1 * k.val = k.val; omega
  · funext a; apply Fin.ext
    match a with
    | ⟨0, _⟩ => show win2_2.index t (0 : Fin 2) * 128 + 1 * k.val = k.val; omega
    | ⟨1, _⟩ => show win2_2.index t (1 : Fin 2) * 64 + 1 * (y 1).val = win2_3.index t (1 : Fin 2) * 64 + 1 * (y 1).val; omega

/-- An index of the result array is in point `t`'s block iff its row is among that block's rows. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole (Pipeline.arrRef spec2 3)).slice (win2_3.rect t)).set ↔ _
  rw [View.set_slice_whole, Rect.mem_set_unit]
  exact Iff.rfl

/-- THE RESULT ARRAY after the region: the product of all the rows. -/
theorem array_eq (c : Dev nD) : (dat2 V c).arrAt 3 cfg2.N = whole (V c (Pipeline.arrRef spec2 0)) (V c (Pipeline.arrRef spec2 1)) (V c (Pipeline.arrRef spec2 2)) :=
  (dat2 V c).arrAt_eq_of_cover 3 _ (fun t _ => flushed_eq V c t) fun i => by
    have hi0 : (i 0).val < 100000 := (i 0).isLt
    have hi1 : (i 1).val < 64 := (i 1).isLt
    have hN : cfg2.N = 20 := N_2
    refine ⟨⟨(i 0).val / 5000, by rw [hN]; omega⟩, flush2_3 _, ?_⟩
    rw [mem_blk]
    obtain ⟨e0, e1, e2, e3, e4, e5, e6, e7⟩ := blocks_at ⟨(i 0).val / 5000, by rw [hN]; omega⟩
    intro a
    match a with
    | ⟨0, _⟩ => show win2_3.index _ (0 : Fin 2) * 5000 ≤ (i 0).val ∧ (i 0).val < win2_3.index _ (0 : Fin 2) * 5000 + 5000; rw [e4]; show (i 0).val / 5000 * 5000 ≤ (i 0).val ∧ (i 0).val < (i 0).val / 5000 * 5000 + 5000; omega
    | ⟨1, _⟩ => show win2_3.index _ (1 : Fin 2) * 64 ≤ (i 1).val ∧ (i 1).val < win2_3.index _ (1 : Fin 2) * 64 + 64; rw [e5]; omega

end Cert.KernelIdeal.Product2

end
-- ==== Proof.RefValue.lean ====
/-
  The reference's result is the network of the stages, and at the exact reading of the float operations each of its
  three products is, entry by entry, a row against a column.
-/
import proofs.«172251_j60232621359253_1_alg».proof.Proof.RefRunPatched
import proofs.«172251_j60232621359253_1_alg».proof.Proof.Stages
import proofs.«172251_j60232621359253_1_alg».proof.Proof.Rows

set_option maxRecDepth 16384

noncomputable section

open scoped BigOperators

namespace Cert.ReferenceIdeal.RefValue

open Cert.ReferenceIdeal Cert.ReferenceIdeal.Gen Cert.ReferenceIdeal.Stage Cert.GcnRows
open Idealize.ShloMosaic Idealize.ShloMosaic.TcCoe Idealize.ShloMosaic.ValueIdx Idealize.SL.Sem

variable {F : FTy → Type} [FloatOps F]

/-- The composed term the reference's run ends at is the network of its eight arguments. -/
theorem result_eq_network (m : (ℓ : Loc nD τ sig) → Buf (Elt F) ℓ) (c : Dev nD) :
    Cert.ReferenceIdeal.ValueP.res_main_v79 m c
      = network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v79; rfl

/-- The host's product of width 128, entry by entry. -/
theorem prod128_apply (X : (⟨S100000x128, .f32⟩ : BufTy).Contents (Elt Ideal)) (W : (⟨S128x128, .f32⟩ : BufTy).Contents (Elt Ideal))
    (r : Fin 100000) (j : Fin 128) : prod128 (F := Ideal) X W (ix2 r j) = rowDot X W r j :=
  host_dot_apply _ rfl X W r j

/-- The host's product of width 64, entry by entry. -/
theorem prod64_apply (X : (⟨S100000x128, .f32⟩ : BufTy).Contents (Elt Ideal)) (W : (⟨S128x64, .f32⟩ : BufTy).Contents (Elt Ideal))
    (r : Fin 100000) (j : Fin 64) : prod64 (F := Ideal) X W (ix2 r j) = rowDot X W r j :=
  host_dot_apply _ rfl X W r j

/-- An entry of the biased, clamped array: the entry plus its column's bias, clamped at zero. -/
theorem clamp_biased_apply (X : (⟨S100000x128, .f32⟩ : BufTy).Contents (Elt Ideal)) (b : (⟨S128, .f32⟩ : BufTy).Contents (Elt Ideal))
    (r : Fin 100000) (k : Fin 128) : clamp128 (F := Ideal) (biased128 X b) (ix2 r k) = act (X (ix2 r k)) (b (ix1 k)) := by
  show max (X (ix2 r k) + broadcastInDim S100000x128 ![0, 1] bcast_S1x128_S100000x128_0_1 (broadcastInDim S1x128 ![1] bcast_S128_S1x128_1 b) (ix2 r k))
      (broadcastInDim S100000x128 ![] bcast_S_S100000x128 (constant (F := Ideal) S_ .f32 0x00000000#32) (ix2 r k)) = _
  rw [broadcastInDim_apply _ bcast_S1x128_S100000x128_0_1 _ (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)]),
    broadcastInDim_apply _ bcast_S128_S1x128_1 b (ix2 (0 : Fin 1) k) (ix1 k) (fun a => match a with
      | ⟨0, _⟩ => by show k.val = if (128 : Nat) = 1 then 0 else k.val; rw [if_neg (by decide)]),
    broadcastInDim_apply _ bcast_S_S100000x128 _ (ix2 r k) (fun a => a.elim0) (fun a => a.elim0)]
  rfl

end Cert.ReferenceIdeal.RefValue

end
-- ==== Proof.ProductsAgree.lean ====
/-
  The kernel's three products are the host's.

  Both are, entry by entry, a row against a column (Rows): the kernel's because every block's entry is, and the blocks
  are the blocks of one array; the host's by the definition of the product at exact values. For the second and third
  product the row was first biased and clamped, entry by entry, on both sides — in the kernel inside the body, from the
  bias laid out as a one-row matrix; on the host by two broadcasts and a maximum — and the one-row matrix read at column
  `k` is the bias vector at `k`.
-/
import proofs.«172251_j60232621359253_1_alg».proof.Proof.Product0
import proofs.«172251_j60232621359253_1_alg».proof.Proof.Product1
import proofs.«172251_j60232621359253_1_alg».proof.Proof.Product2
import proofs.«172251_j60232621359253_1_alg».proof.Proof.RefValue
import Idealize.ShloMosaic.Lib.ValueLayout

set_option maxRecDepth 16384

noncomputable section

open scoped BigOperators

namespace Cert.ProductsAgree

open Cert.GcnRows Cert.ReferenceIdeal.Stage Cert.ReferenceIdeal.RefValue
open Idealize.ShloMosaic Idealize.ShloMosaic.ValueIdx

/-- The first product: all the rows times the first weight matrix. -/
theorem first (X : (⟨2, ![100000, 128]⟩ : Shape).Idx → EReal) (W : (⟨2, ![128, 128]⟩ : Shape).Idx → EReal) :
    Cert.KernelIdeal.Product0.whole X W = prod128 (F := Ideal) X W := by
  funext i
  obtain ⟨r, j, rfl⟩ : ∃ (r : Fin 100000) (j : Fin 128), i = ix2 r j := ⟨i 0, i 1, eq_ix2 i⟩
  exact (prod128_apply X W r j).symm

/-- The second: the biased, clamped rows times the second weight matrix; the kernel's bias row is the bias vector
    laid out as one row. -/
theorem second (A : (⟨2, ![100000, 128]⟩ : Shape).Idx → EReal) (b : (⟨1, ![128]⟩ : Shape).Idx → EReal)
    (h : (⟨1, ![128]⟩ : Shape).ShapeCasts ⟨2, ![1, 128]⟩) (W : (⟨2, ![128, 128]⟩ : Shape).Idx → EReal) :
    Cert.KernelIdeal.Product1.whole A (shapeCast ⟨2, ![1, 128]⟩ b h) W = prod128 (F := Ideal) (clamp128 (biased128 A b)) W := by
  funext i
  obtain ⟨r, j, rfl⟩ : ∃ (r : Fin 100000) (j : Fin 128), i = ix2 r j := ⟨i 0, i 1, eq_ix2 i⟩
  refine Eq.trans ?_ (prod128_apply (clamp128 (biased128 A b)) W r j).symm
  show rowActDot A (shapeCast ⟨2, ![1, 128]⟩ b h) W r j = rowDot (clamp128 (F := Ideal) (biased128 A b)) W r j
  unfold rowActDot rowDot
  refine Finset.sum_congr rfl fun k _ => ?_
  rw [clamp_biased_apply, shapeCast_a_1a_apply]

/-- The third: the same with the third weight matrix, of width 64. -/
theorem third (A : (⟨2, ![100000, 128]⟩ : Shape).Idx → EReal) (b : (⟨1, ![128]⟩ : Shape).Idx → EReal)
    (h : (⟨1, ![128]⟩ : Shape).ShapeCasts ⟨2, ![1, 128]⟩) (W : (⟨2, ![128, 64]⟩ : Shape).Idx → EReal) :
    Cert.KernelIdeal.Product2.whole A (shapeCast ⟨2, ![1, 128]⟩ b h) W = prod64 (F := Ideal) (clamp128 (biased128 A b)) W := by
  funext i
  obtain ⟨r, j, rfl⟩ : ∃ (r : Fin 100000) (j : Fin 64), i = ix2 r j := ⟨i 0, i 1, eq_ix2 i⟩
  refine Eq.trans ?_ (prod64_apply (clamp128 (biased128 A b)) W r j).symm
  show rowActDot A (shapeCast ⟨2, ![1, 128]⟩ b h) W r j = rowDot (clamp128 (F := Ideal) (biased128 A b)) W r j
  unfold rowActDot rowDot
  refine Finset.sum_congr rfl fun k _ => ?_
  rw [clamp_biased_apply, shapeCast_a_1a_apply]

end Cert.ProductsAgree

end
-- ==== Proof.KernelValue.lean ====
/-
  The idealized kernel's result is the network of its arguments.

  Follow the buffers through @main's fold. When the first region is entered the edge data — sources, destinations,
  weights — have been computed from the edge list, and no later operation or region writes them, nor the arguments: each
  is carried unchanged to where it is read. The first region leaves the product of the node features with the first
  weight matrix; the stretch after it runs one round of message passing on that and lays the first bias out as a row;
  the second region leaves the product of the biased, clamped round with the second matrix; and so on. Composed, that is
  the network the reference computes, stage for stage.
-/
import proofs.«172251_j60232621359253_1_alg».proof.Proof.KernelRun
import proofs.«172251_j60232621359253_1_alg».proof.Proof.Stretches
import proofs.«172251_j60232621359253_1_alg».proof.Proof.ProductsAgree

set_option maxRecDepth 16384

noncomputable section

namespace Cert.KernelIdeal.Result

open Cert.KernelIdeal Cert.KernelIdeal.Gen Cert.ReferenceIdeal.Stage
open Idealize.ShloMosaic Idealize.ShloMosaic.TcCoe Idealize.SL.Sem

variable (m : (ℓ : Loc nD τ sig) → Buf (Elt Ideal) ℓ) (ρ : Dev nD → PrngReg) (c : Dev nD)

/-! ## When the first region is entered -/

theorem src_at3 : W3 m ρ c (Proc.devRef .tc main_v1) = src (F := Ideal) (m ((c.tc : Thread nD τ).loc main_arg1)) := Stretch.init_src (W0 m ρ c)
theorem dst_at3 : W3 m ρ c (Proc.devRef .tc main_v3) = dst (F := Ideal) (m ((c.tc : Thread nD τ).loc main_arg1)) := Stretch.init_dst (W0 m ρ c)
theorem weight_at3 : W3 m ρ c (Proc.devRef .tc main_v26) = weight (F := Ideal) (src (m ((c.tc : Thread nD τ).loc main_arg1))) (dst (m ((c.tc : Thread nD τ).loc main_arg1))) := Stretch.init_weight (W0 m ρ c)
theorem arg0_at3 : W3 m ρ c (Proc.devRef .tc main_arg0) = (m ((c.tc : Thread nD τ).loc main_arg0)) := Stretch.init_keep_arg0 (W0 m ρ c)
theorem arg2_at3 : W3 m ρ c (Proc.devRef .tc main_arg2) = (m ((c.tc : Thread nD τ).loc main_arg2)) := Stretch.init_keep_arg2 (W0 m ρ c)
theorem arg3_at3 : W3 m ρ c (Proc.devRef .tc main_arg3) = (m ((c.tc : Thread nD τ).loc main_arg3)) := Stretch.init_keep_arg3 (W0 m ρ c)
theorem arg4_at3 : W3 m ρ c (Proc.devRef .tc main_arg4) = (m ((c.tc : Thread nD τ).loc main_arg4)) := Stretch.init_keep_arg4 (W0 m ρ c)
theorem arg5_at3 : W3 m ρ c (Proc.devRef .tc main_arg5) = (m ((c.tc : Thread nD τ).loc main_arg5)) := Stretch.init_keep_arg5 (W0 m ρ c)
theorem arg6_at3 : W3 m ρ c (Proc.devRef .tc main_arg6) = (m ((c.tc : Thread nD τ).loc main_arg6)) := Stretch.init_keep_arg6 (W0 m ρ c)
theorem arg7_at3 : W3 m ρ c (Proc.devRef .tc main_arg7) = (m ((c.tc : Thread nD τ).loc main_arg7)) := Stretch.init_keep_arg7 (W0 m ρ c)

/-! ## Carried forward: no region and no later operation writes the edge data or the arguments -/

theorem v1_at4 : W4 m ρ c (Proc.devRef .tc main_v1) = src (F := Ideal) (m ((c.tc : Thread nD τ).loc main_arg1)) :=
  (W4_of_ne m ρ c main_v1 (by decide)).trans (src_at3 m ρ c)
theorem v1_at6 : W6 m ρ c (Proc.devRef .tc main_v1) = src (F := Ideal) (m ((c.tc : Thread nD τ).loc main_arg1)) :=
  (W6_of_ne m ρ c main_v1 (by decide)).trans ((Stretch.s1_keep_v1 (W4 m ρ c)).trans (v1_at4 m ρ c))
theorem v1_at8 : W8 m ρ c (Proc.devRef .tc main_v1) = src (F := Ideal) (m ((c.tc : Thread nD τ).loc main_arg1)) :=
  (W8_of_ne m ρ c main_v1 (by decide)).trans ((Stretch.s2_keep_v1 (W6 m ρ c)).trans (v1_at6 m ρ c))

theorem v3_at4 : W4 m ρ c (Proc.devRef .tc main_v3) = dst (F := Ideal) (m ((c.tc : Thread nD τ).loc main_arg1)) :=
  (W4_of_ne m ρ c main_v3 (by decide)).trans (dst_at3 m ρ c)
theorem v3_at6 : W6 m ρ c (Proc.devRef .tc main_v3) = dst (F := Ideal) (m ((c.tc : Thread nD τ).loc main_arg1)) :=
  (W6_of_ne m ρ c main_v3 (by decide)).trans ((Stretch.s1_keep_v3 (W4 m ρ c)).trans (v3_at4 m ρ c))
theorem v3_at8 : W8 m ρ c (Proc.devRef .tc main_v3) = dst (F := Ideal) (m ((c.tc : Thread nD τ).loc main_arg1)) :=
  (W8_of_ne m ρ c main_v3 (by decide)).trans ((Stretch.s2_keep_v3 (W6 m ρ c)).trans (v3_at6 m ρ c))

theorem v26_at4 : W4 m ρ c (Proc.devRef .tc main_v26) = weight (F := Ideal) (src (m ((c.tc : Thread nD τ).loc main_arg1))) (dst (m ((c.tc : Thread nD τ).loc main_arg1))) :=
  (W4_of_ne m ρ c main_v26 (by decide)).trans (weight_at3 m ρ c)
theorem v26_at6 : W6 m ρ c (Proc.devRef .tc main_v26) = weight (F := Ideal) (src (m ((c.tc : Thread nD τ).loc main_arg1))) (dst (m ((c.tc : Thread nD τ).loc main_arg1))) :=
  (W6_of_ne m ρ c main_v26 (by decide)).trans ((Stretch.s1_keep_v26 (W4 m ρ c)).trans (v26_at4 m ρ c))
theorem v26_at8 : W8 m ρ c (Proc.devRef .tc main_v26) = weight (F := Ideal) (src (m ((c.tc : Thread nD τ).loc main_arg1))) (dst (m ((c.tc : Thread nD τ).loc main_arg1))) :=
  (W8_of_ne m ρ c main_v26 (by decide)).trans ((Stretch.s2_keep_v26 (W6 m ρ c)).trans (v26_at6 m ρ c))

theorem arg3_at4 : W4 m ρ c (Proc.devRef .tc main_arg3) = (m ((c.tc : Thread nD τ).loc main_arg3)) :=
  (W4_of_ne m ρ c main_arg3 (by decide)).trans (arg3_at3 m ρ c)
theorem arg4_at5 : W5 m ρ c (Proc.devRef .tc main_arg4) = (m ((c.tc : Thread nD τ).loc main_arg4)) :=
  (Stretch.s1_keep_arg4 (W4 m ρ c)).trans ((W4_of_ne m ρ c main_arg4 (by decide)).trans (arg4_at3 m ρ c))
theorem arg5_at6 : W6 m ρ c (Proc.devRef .tc main_arg5) = (m ((c.tc : Thread nD τ).loc main_arg5)) :=
  (W6_of_ne m ρ c main_arg5 (by decide)).trans ((Stretch.s1_keep_arg5 (W4 m ρ c)).trans
    ((W4_of_ne m ρ c main_arg5 (by decide)).trans (arg5_at3 m ρ c)))
theorem arg6_at6 : W6 m ρ c (Proc.devRef .tc main_arg6) = (m ((c.tc : Thread nD τ).loc main_arg6)) :=
  (W6_of_ne m ρ c main_arg6 (by decide)).trans ((Stretch.s1_keep_arg6 (W4 m ρ c)).trans
    ((W4_of_ne m ρ c main_arg6 (by decide)).trans (arg6_at3 m ρ c)))
theorem arg6_at7 : W7 m ρ c (Proc.devRef .tc main_arg6) = (m ((c.tc : Thread nD τ).loc main_arg6)) :=
  (Stretch.s2_keep_arg6 (W6 m ρ c)).trans (arg6_at6 m ρ c)
theorem arg7_at6 : W6 m ρ c (Proc.devRef .tc main_arg7) = (m ((c.tc : Thread nD τ).loc main_arg7)) :=
  (W6_of_ne m ρ c main_arg7 (by decide)).trans ((Stretch.s1_keep_arg7 (W4 m ρ c)).trans
    ((W4_of_ne m ρ c main_arg7 (by decide)).trans (arg7_at3 m ρ c)))
theorem arg7_at8 : W8 m ρ c (Proc.devRef .tc main_arg7) = (m ((c.tc : Thread nD τ).loc main_arg7)) :=
  (W8_of_ne m ρ c main_arg7 (by decide)).trans ((Stretch.s2_keep_arg7 (W6 m ρ c)).trans (arg7_at6 m ρ c))

/-! ## The three layers -/

/-- The first round: message passing on `x · W1`. -/
abbrev round1 : (⟨Cert.ReferenceIdeal.S100000x128, .f32⟩ : BufTy).Contents (Elt Ideal) :=
  round128 (F := Ideal) (prod128 (m ((c.tc : Thread nD τ).loc main_arg0)) (m ((c.tc : Thread nD τ).loc main_arg2))) (src (m ((c.tc : Thread nD τ).loc main_arg1))) (dst (m ((c.tc : Thread nD τ).loc main_arg1))) (weight (src (m ((c.tc : Thread nD τ).loc main_arg1))) (dst (m ((c.tc : Thread nD τ).loc main_arg1))))
/-- The second: on the biased, clamped first round times `W2`. -/
abbrev round2 : (⟨Cert.ReferenceIdeal.S100000x128, .f32⟩ : BufTy).Contents (Elt Ideal) :=
  round128 (F := Ideal) (prod128 (clamp128 (biased128 (round1 m c) (m ((c.tc : Thread nD τ).loc main_arg3)))) (m ((c.tc : Thread nD τ).loc main_arg4))) (src (m ((c.tc : Thread nD τ).loc main_arg1))) (dst (m ((c.tc : Thread nD τ).loc main_arg1))) (weight (src (m ((c.tc : Thread nD τ).loc main_arg1))) (dst (m ((c.tc : Thread nD τ).loc main_arg1))))

theorem first_product : W4 m ρ c (Proc.devRef .tc main_v29) = prod128 (F := Ideal) (m ((c.tc : Thread nD τ).loc main_arg0)) (m ((c.tc : Thread nD τ).loc main_arg2)) := by
  refine (W4_arr m ρ c 3).trans ((Product0.array_eq (V3 m ρ) c).trans ?_)
  show Product0.whole (W3 m ρ c (Proc.devRef .tc main_arg0)) (W3 m ρ c (Proc.devRef .tc main_arg2)) = _
  rw [arg0_at3, arg2_at3]
  exact Cert.ProductsAgree.first _ _

theorem first_round : W5 m ρ c (Proc.devRef .tc main_v42) = round1 m c := by
  refine (Stretch.s1_round (W4 m ρ c)).trans ?_
  rw [first_product, v1_at4, v3_at4, v26_at4]

theorem first_bias : W5 m ρ c (Proc.devRef .tc main_v43) = shapeCast S1x128 (m ((c.tc : Thread nD τ).loc main_arg3)) shapeCasts_S128_S1x128 := by
  refine (Stretch.s1_bias (W4 m ρ c)).trans ?_
  rw [arg3_at4]

theorem second_product : W6 m ρ c (Proc.devRef .tc main_v44) = prod128 (F := Ideal) (clamp128 (biased128 (round1 m c) (m ((c.tc : Thread nD τ).loc main_arg3)))) (m ((c.tc : Thread nD τ).loc main_arg4)) := by
  refine (W6_arr m ρ c 3).trans ((Product1.array_eq (V5 m ρ) c).trans ?_)
  show Product1.whole (W5 m ρ c (Proc.devRef .tc main_v42)) (W5 m ρ c (Proc.devRef .tc main_v43)) (W5 m ρ c (Proc.devRef .tc main_arg4)) = _
  rw [first_round, first_bias, arg4_at5]
  exact Cert.ProductsAgree.second _ _ _ _

theorem second_round : W7 m ρ c (Proc.devRef .tc main_v57) = round2 m c := by
  refine (Stretch.s2_round (W6 m ρ c)).trans ?_
  rw [second_product, v1_at6, v3_at6, v26_at6]

theorem second_bias : W7 m ρ c (Proc.devRef .tc main_v58) = shapeCast S1x128 (m ((c.tc : Thread nD τ).loc main_arg5)) shapeCasts_S128_S1x128 := by
  refine (Stretch.s2_bias (W6 m ρ c)).trans ?_
  rw [arg5_at6]

theorem third_product : W8 m ρ c (Proc.devRef .tc main_v59) = prod64 (F := Ideal) (clamp128 (biased128 (round2 m c) (m ((c.tc : Thread nD τ).loc main_arg5)))) (m ((c.tc : Thread nD τ).loc main_arg6)) := by
  refine (W8_arr m ρ c 3).trans ((Product2.array_eq (V7 m ρ) c).trans ?_)
  show Product2.whole (W7 m ρ c (Proc.devRef .tc main_v57)) (W7 m ρ c (Proc.devRef .tc main_v58)) (W7 m ρ c (Proc.devRef .tc main_arg6)) = _
  rw [second_round, second_bias, arg6_at7]
  exact Cert.ProductsAgree.third _ _ _ _

/-- THE RESULT BUFFER at the end of the fold: the network of the eight arguments. -/
theorem result_eq : W9 m ρ c (Proc.devRef .tc main_v75)
    = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (Stretch.s3_result (W8 m ρ c)).trans ?_
  rw [third_product, v1_at8, v3_at8, v26_at8, arg7_at8]
  rfl

/-- The idealized kernel's run: every weakly fair execution terminates with the result buffer at the network of the
    arguments and the arguments unchanged. -/
theorem run : θ_run defs (onTc (τ := τ) (main (F := Ideal))) ⟨m, fun _ => 0, ρ⟩ (fun r => ∀ c : Dev nD,
      r.2.mem ((c.tc : Thread nD τ).loc main_v75)
        = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Ending.run_result m ρ)

end Cert.KernelIdeal.Result

end
-- ==== Proof.lean ====
/-
  A three-layer graph convolution: the kernel against its reference, over the extended reals.

  Both programs compute, from node features `x`, an edge list and three weight matrices and biases,
      out = Â (relu (Â (relu (Â (x W1) + b1) W2) + b2) W3) + b3,
  where `Â h` is one round of message passing: every edge carries its source's row of `h`, scaled by the product of
  the inverse square roots of the in-degrees at its two ends (zero where the degree is zero), to its destination, where
  the rows are added up. The edge weights, the gathers and the scatter-adds are the same host operations in both
  programs. They differ in the three products: the reference multiplies the whole array of rows by the matrix, and adds
  the bias and clamps at zero on the host; the kernel cuts the 100000 rows into twenty blocks of 5000 and, per block,
  adds the bias row, clamps, narrows both operands to a shorter float format and multiplies on the matrix unit into an
  accumulator of zeros. Over the extended reals a change of float format is the identity and a product is the exact sum
  of products, and an entry of a product of rows depends on its own row only: so the blocks' products are the blocks of
  the whole product, and the two programs are the same function of their arguments. No law that fails at an infinity is
  used (no distributivity, no cancellation), so the inputs' finiteness is not needed for the values.

  The frames of the two kernel programs are their generated frame certificates; the reference's frame is its run with
  the result dropped; the idealization rewrote no operation, so there is nothing to preserve.
-/
import proofs.«172251_j60232621359253_1_alg».proof.Defs
import proofs.«172251_j60232621359253_1_alg».proof.Proof.Gen.Kernel
import proofs.«172251_j60232621359253_1_alg».proof.Proof.Gen.Kernel.Frame
import proofs.«172251_j60232621359253_1_alg».proof.Proof.Gen.KernelIdeal
import proofs.«172251_j60232621359253_1_alg».proof.Proof.Gen.KernelIdeal.Frame
import proofs.«172251_j60232621359253_1_alg».proof.Proof.Gen.ReferenceIdeal
import proofs.«172251_j60232621359253_1_alg».proof.Proof.Gen.Pre_finite_inputs
import proofs.«172251_j60232621359253_1_alg».proof.Proof.KernelValue
import proofs.«172251_j60232621359253_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result at the network of the arguments, and the arguments agree. -/
theorem algebraic : Cert.algebraic_KernelIdeal_ReferenceIdeal := by
  intro m ρ m' ρ' _ hagree
  refine ⟨fun c => Cert.ReferenceIdeal.Stage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨?_, (h c).2⟩) (Cert.ReferenceIdeal.ValueP.run (F := Ideal) m' ρ')
  obtain ⟨e0, e1, e2, e3, e4, e5, e6, e7⟩ := hagree c
  rw [(h c).1, Cert.ReferenceIdeal.RefValue.result_eq_network, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
